-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1048576 : Shape := ⟨1, ![1048576]⟩
abbrev S65536x16 : Shape := ⟨2, ![65536, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536x16 : S_.BroadcastsInDim S65536x16 (![] : Fin 0 → Fin S65536x16.rank)
  reducesTo_S65536x16_S_d0_1 : S65536x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg8 : FVec F S4096 .f32) (main_arg9 : FVec F S4096 .f32) (main_v33 : IVec S_ 1) : IVec S_ 1 :=
  let main_v34 : FVec F S4096 .f32 := Host.absf main_arg8
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg9
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  main_v43

def fn_part1 {F : FTy → Type} [FloatOps F] (main_arg5 : FVec F S64x16 .f32) (main_arg6 : FVec F S16 .f32) (main_arg7 : FVec F S4096 .f32) (main_arg8 : FVec F S4096 .f32) (main_arg9 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg5
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S4096 .f32 := Host.absf main_arg7
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg8 main_arg9 main_v33

def fn {F : FTy → Type} [FloatOps F] (main_arg0 : FVec F S4x2048x4096 .f32) (main_arg1 : IVec S1048576 32) (main_arg2 : FVec F S65536x16 .f32) (main_arg3 : FVec F S16x64 .f32) (main_arg4 : FVec F S64 .f32) (main_arg5 : FVec F S64x16 .f32) (main_arg6 : FVec F S16 .f32) (main_arg7 : FVec F S4096 .f32) (main_arg8 : FVec F S4096 .f32) (main_arg9 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536x16 .f32 := Host.absf main_arg2
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S4x2048x4096 : Shape := ⟨3, ![4, 2048, 4096]⟩
abbrev S1048576 : Shape := ⟨1, ![1048576]⟩
abbrev S65536x16 : Shape := ⟨2, ![65536, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S1048576x64 : Shape := ⟨2, ![1048576, 64]⟩
abbrev S1x64 : Shape := ⟨2, ![1, 64]⟩
abbrev S1x16 : Shape := ⟨2, ![1, 16]⟩
abbrev S4096x4096 : Shape := ⟨2, ![4096, 4096]⟩
abbrev S4096x1 : Shape := ⟨2, ![4096, 1]⟩
abbrev S8192x4096 : Shape := ⟨2, ![8192, 4096]⟩
abbrev S1x4096 : Shape := ⟨2, ![1, 4096]⟩
abbrev S1024x512 : Shape := ⟨2, ![1024, 512]⟩
abbrev S1x1024 : Shape := ⟨2, ![1, 1024]⟩
abbrev S1024x1024 : Shape := ⟨2, ![1024, 1024]⟩

abbrev nBuf : Space → Nat
  | .hbm => 43
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S1048576, .i32⟩
  | .hbm, ⟨2, _⟩ => ⟨S65536x16, .f32⟩
  | .hbm, ⟨3, _⟩ => ⟨S16x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .i32⟩
  | .hbm, ⟨11, _⟩ => ⟨S1048576, .i32⟩
  | .hbm, ⟨12, _⟩ => ⟨S1048576, .i1⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S1048576x1, .i32⟩
  | .hbm, ⟨18, _⟩ => ⟨S1048576x16, .f32⟩
  | .hbm, ⟨19, _⟩ => ⟨S1048576x64, .f32⟩
  | .hbm, ⟨20, _⟩ => ⟨S1x64, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x16, .f32⟩
  | .hbm, ⟨27, _⟩ => ⟨S1x16, .f32⟩
  | .hbm, ⟨28, _⟩ => ⟨S1048576x16, .f32⟩
  | .hbm, ⟨29, _⟩ => ⟨S1048576x16, .f32⟩
  | .hbm, ⟨30, _⟩ => ⟨S4096x4096, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S8192x4096, .f32⟩
  | .hbm, ⟨38, _⟩ => ⟨S8192x4096, .bf16⟩
  | .hbm, ⟨39, _⟩ => ⟨S4096x4096, .bf16⟩
  | .hbm, ⟨40, _⟩ => ⟨S1x4096, .f32⟩
  | .hbm, ⟨41, _⟩ => ⟨S8192x4096, .f32⟩
  | .hbm, ⟨42, _⟩ => ⟨S4x2048x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  shapeCasts_S1048576x16_S4096x4096 : S1048576x16.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S65536x16_S1048576x1_S1048576x16_1_0_n_n_0_1_116_wf : GatherDims.WF S65536x16 S1048576x1 S1048576x16 [1] [0] [] [0] [] 1 ![1, 16]
  dot_S1048576x16_S16x64_S1048576x64_1_0_0_1_n_n_wf : DotDims.WF S1048576x16 S16x64 S1048576x64 [1] [0] [0] [1] [] []
  dot_S1048576x64_S64x16_S1048576x16_1_0_0_1_n_n_wf : DotDims.WF S1048576x64 S64x16 S1048576x16 [1] [0] [0] [1] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S65536x16_S1048576x1_S1048576x16_1_0_n_n_0_1_116 : GatherDims S65536x16 S1048576x1 S1048576x16 where
  offsetDims := [1]
  collapsedSliceDims := [0]
  operandBatchingDims := []
  startIndicesBatchingDims := []
  startIndexMap := [0]
  indexVectorDim := 1
  sliceSizes := ![1, 16]
  wf := gather_S65536x16_S1048576x1_S1048576x16_1_0_n_n_0_1_116_wf
def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v24) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S1048576 : Shape := ⟨1, ![1048576]⟩
abbrev S65536x16 : Shape := ⟨2, ![65536, 16]⟩
abbrev S16x64 : Shape := ⟨2, ![16, 64]⟩
abbrev S64 : Shape := ⟨1, ![64]⟩
abbrev S64x16 : Shape := ⟨2, ![64, 16]⟩
abbrev S16 : Shape := ⟨1, ![16]⟩
abbrev S4096 : Shape := ⟨1, ![4096]⟩
abbrev S_ : Shape := ⟨0, ![]⟩
abbrev S1048576x1 : Shape := ⟨2, ![1048576, 1]⟩
abbrev S1048576x16 : Shape := ⟨2, ![1048576, 16]⟩
abbrev S1048576x64 : Shape := ⟨2, ![1048576, 64]⟩
abbrev S1x64 : Shape := ⟨2, ![1, 64]⟩
abbrev S1x16 : Shape := ⟨2, ![1, 16]⟩
abbrev S4096x4096 : Shape := ⟨2, ![4096, 4096]⟩
abbrev S4096x1 : Shape := ⟨2, ![4096, 1]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1048576, .i32⟩
  | .hbm, ⟨2, _⟩ => ⟨S65536x16, .f32⟩
  | .hbm, ⟨3, _⟩ => ⟨S16x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S_, .i32⟩
  | .hbm, ⟨11, _⟩ => ⟨S1048576, .i32⟩
  | .hbm, ⟨12, _⟩ => ⟨S1048576, .i1⟩
  | .hbm, ⟨13, _⟩ => ⟨S_, .i32⟩
  | .hbm, ⟨14, _⟩ => ⟨S1048576, .i32⟩
  | .hbm, ⟨15, _⟩ => ⟨S1048576, .i32⟩
  | .hbm, ⟨16, _⟩ => ⟨S1048576, .i32⟩
  | .hbm, ⟨17, _⟩ => ⟨S1048576x1, .i32⟩
  | .hbm, ⟨18, _⟩ => ⟨S1048576x16, .f32⟩
  | .hbm, ⟨19, _⟩ => ⟨S1048576x64, .f32⟩
  | .hbm, ⟨20, _⟩ => ⟨S1x64, .f32⟩
  | .hbm, ⟨21, _⟩ => ⟨S1048576x64, .f32⟩
  | .hbm, ⟨22, _⟩ => ⟨S1048576x64, .f32⟩
  | .hbm, ⟨23, _⟩ => ⟨S_, .f32⟩
  | .hbm, ⟨24, _⟩ => ⟨S1048576x64, .f32⟩
  | .hbm, ⟨25, _⟩ => ⟨S1048576x64, .f32⟩
  | .hbm, ⟨26, _⟩ => ⟨S1048576x16, .f32⟩
  | .hbm, ⟨27, _⟩ => ⟨S1x16, .f32⟩
  | .hbm, ⟨28, _⟩ => ⟨S1048576x16, .f32⟩
  | .hbm, ⟨29, _⟩ => ⟨S1048576x16, .f32⟩
  | .hbm, ⟨30, _⟩ => ⟨S4096x4096, .f32⟩
  | .hbm, ⟨31, _⟩ => ⟨S4096x1, .f32⟩
  | .hbm, ⟨32, _⟩ => ⟨S4096x4096, .f32⟩
  | .hbm, ⟨33, _⟩ => ⟨S4096x4096, .f32⟩
  | .hbm, ⟨34, _⟩ => ⟨S4096x1, .f32⟩
  | .hbm, ⟨35, _⟩ => ⟨S4096x4096, .f32⟩
  | .hbm, ⟨36, _⟩ => ⟨S4096x4096, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_cst : Ref sig .tc := ⟨.hbm, 23, rfl⟩
abbrev main_call0_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  shapeCasts_S1048576x16_S4096x4096 : S1048576x16.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S65536x16_S1048576x1_S1048576x16_1_0_n_n_0_1_116_wf : GatherDims.WF S65536x16 S1048576x1 S1048576x16 [1] [0] [] [0] [] 1 ![1, 16]
  dot_S1048576x16_S16x64_S1048576x64_1_0_0_1_n_n_wf : DotDims.WF S1048576x16 S16x64 S1048576x64 [1] [0] [0] [1] [] []
  dot_S1048576x64_S64x16_S1048576x16_1_0_0_1_n_n_wf : DotDims.WF S1048576x64 S64x16 S1048576x16 [1] [0] [0] [1] [] []
  dot_S4x2048x4096_S4096x4096_S4x2048x4096_2_1_01_0_n_n_wf : DotDims.WF S4x2048x4096 S4096x4096 S4x2048x4096 [2] [1] [0, 1] [0] [] []

variable [Facts₀]

def gather_S65536x16_S1048576x1_S1048576x16_1_0_n_n_0_1_116 : GatherDims S65536x16 S1048576x1 S1048576x16 where
  offsetDims := [1]
  collapsedSliceDims := [0]
  operandBatchingDims := []
  startIndicesBatchingDims := []
  startIndexMap := [0]
  indexVectorDim := 1
  sliceSizes := ![1, 16]
  wf := gather_S65536x16_S1048576x1_S1048576x16_1_0_n_n_0_1_116_wf
def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def dot_S1048576x64_S64x16_S1048576x16_1_0_0_1_n_n : DotDims S1048576x64 S64x16 S1048576x16 where
  lhsContracting := [1]
  rhsContracting := [0]
  lhsNonContracting := [0]
  rhsNonContracting := [1]
  lhsBatch := []
  rhsBatch := []
  wf := dot_S1048576x64_S64x16_S1048576x16_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibTileSum.lean ====
/-
  Summing a long axis tile by tile.

  An axis of length `T * R` is cut into `T` consecutive tiles of `R` rows; row `r` of tile `j` is row
  `R * j + r` of the axis. In any additive commutative monoid the sum over the whole axis is the sum over the tiles
  of each tile's sum (`sum_tiles`). An accumulator that starts at zero and adds one tile's sum per step
  (`tileAcc`: after the first step it holds `0 + ` the first tile's sum) therefore holds, after `n` steps, the sum
  of the first `n` tiles (`tileAcc_eq`), and after all `T` steps the sum over the whole axis (`tileAcc_all`;
  `tileAcc_512_8` is the instance of 8 tiles of 512 rows, an axis of length 4096). Only commutativity and
  associativity of `+` are used, so the statements hold on the extended reals with their infinities.
-/
import Mathlib.Algebra.BigOperators.Fin
import Mathlib.Algebra.BigOperators.Intervals

namespace Cert.LibTileSum

open scoped BigOperators

variable {M : Type*} [AddCommMonoid M]

/-- The sum over an axis of `T * R` rows is the sum over its `T` tiles of the sum over each tile's `R` rows. -/
theorem sum_tiles (T R : ℕ) (g : ℕ → M) :
    (∑ s : Fin (T * R), g s.val) = ∑ j ∈ Finset.range T, ∑ r : Fin R, g (R * j + r.val) := by
  rw [Fin.sum_univ_eq_sum_range (fun n => g n) (T * R)]
  induction T with
  | zero => simp
  | succ T ih =>
    rw [Finset.sum_range_succ, ← ih, Nat.succ_mul, Finset.sum_range_add,
      Fin.sum_univ_eq_sum_range (fun r => g (R * T + r)) R, Nat.mul_comm R T]

/-- The accumulator after `n` tiles: zero, then one tile's sum added per step. -/
def tileAcc (R : ℕ) (g : ℕ → M) : ℕ → M
  | 0 => 0
  | n + 1 => tileAcc R g n + ∑ r : Fin R, g (R * n + r.val)

@[simp] theorem tileAcc_zero (R : ℕ) (g : ℕ → M) : tileAcc R g 0 = 0 := rfl

theorem tileAcc_succ (R : ℕ) (g : ℕ → M) (n : ℕ) :
    tileAcc R g (n + 1) = tileAcc R g n + ∑ r : Fin R, g (R * n + r.val) := rfl

/-- After `n` steps the accumulator holds the sum of the first `n` tiles. -/
theorem tileAcc_eq (R : ℕ) (g : ℕ → M) (n : ℕ) :
    tileAcc R g n = ∑ j ∈ Finset.range n, ∑ r : Fin R, g (R * j + r.val) := by
  induction n with
  | zero => simp
  | succ n ih => rw [tileAcc_succ, ih, Finset.sum_range_succ]

/-- After all `T` steps the accumulator holds the sum over the whole axis. -/
theorem tileAcc_all (T R : ℕ) (g : ℕ → M) : tileAcc R g T = ∑ s : Fin (T * R), g s.val := by
  rw [tileAcc_eq, sum_tiles]

/-- Eight tiles of 512 rows: the accumulator ends at the sum over the axis of length 4096. -/
theorem tileAcc_512_8 (g : ℕ → M) : tileAcc 512 g 8 = ∑ s : Fin 4096, g s.val :=
  tileAcc_all 8 512 g

end Cert.LibTileSum
-- ==== Proof.RowDot.lean ====
import proofs.«149485_j24876450578668_1_alg».proof.Proof.LibTileSum
import Idealize.ShloMosaic.PureOps.Ideal
import Idealize.ShloMosaic.Lib.ValueIdx

/-!
  The linear layer's entry as an inner product of two rows, and the same inner product accumulated eight tiles of 512
  terms at a time.

  For X of shape [8192, 4096] and W of shape [4096, 4096] on the extended reals, entry (r, o) of X · Wᵀ is
  the sum over s < 4096 of X (r, s) * W (o, s). The terms are indexed here by a natural number (read modulo 4096) so
  that the tile-by-tile accumulator of an additive commutative monoid applies: after all eight tiles it holds the whole
  sum. Only associativity and commutativity of + are used, so nothing is assumed finite.
-/

noncomputable section

namespace Cert.RowDot

open Idealize.ShloMosaic Idealize.ShloMosaic.ValueIdx Cert.LibTileSum

/-- The s-th term of the inner product of row r of X with row o of W (s read modulo 4096). -/
def term (X : (⟨2, ![8192, 4096]⟩ : Shape).Idx → EReal) (W : (⟨2, ![4096, 4096]⟩ : Shape).Idx → EReal)
    (r : Fin 8192) (o : Fin 4096) (s : ℕ) : EReal :=
  X (ix2 r ⟨s % 4096, Nat.mod_lt _ (by decide)⟩) * W (ix2 o ⟨s % 4096, Nat.mod_lt _ (by decide)⟩)

/-- Entry (r, o) of X · Wᵀ. -/
def dot (X : (⟨2, ![8192, 4096]⟩ : Shape).Idx → EReal) (W : (⟨2, ![4096, 4096]⟩ : Shape).Idx → EReal)
    (r : Fin 8192) (o : Fin 4096) : EReal :=
  ∑ s : Fin 4096, X (ix2 r s) * W (ix2 o s)

theorem term_of_lt (X : (⟨2, ![8192, 4096]⟩ : Shape).Idx → EReal) (W : (⟨2, ![4096, 4096]⟩ : Shape).Idx → EReal)
    (r : Fin 8192) (o : Fin 4096) (s : ℕ) (hs : s < 4096) :
    term X W r o s = X (ix2 r ⟨s, hs⟩) * W (ix2 o ⟨s, hs⟩) := by
  unfold term
  have e : (⟨s % 4096, Nat.mod_lt _ (by decide)⟩ : Fin 4096) = ⟨s, hs⟩ := Fin.ext (Nat.mod_eq_of_lt hs)
  rw [e]

/-- The sum of all 4096 terms is the entry. -/
theorem sum_term (X : (⟨2, ![8192, 4096]⟩ : Shape).Idx → EReal) (W : (⟨2, ![4096, 4096]⟩ : Shape).Idx → EReal)
    (r : Fin 8192) (o : Fin 4096) : ∑ s : Fin 4096, term X W r o s.val = dot X W r o :=
  Finset.sum_congr rfl fun s _ => term_of_lt X W r o s.val s.isLt

/-- The accumulator that starts at zero and adds one tile of 512 terms per step holds the entry after eight steps. -/
theorem tileAcc_all (X : (⟨2, ![8192, 4096]⟩ : Shape).Idx → EReal) (W : (⟨2, ![4096, 4096]⟩ : Shape).Idx → EReal)
    (r : Fin 8192) (o : Fin 4096) : tileAcc 512 (term X W r o) 8 = dot X W r o :=
  (tileAcc_512_8 (term X W r o)).trans (sum_term X W r o)

/-- The linear layer: out (b, s, o) = (the sum over i < 4096 of x (b, s, i) * w (o, i)) + bias o. -/
def linear (x : (⟨3, ![4, 2048, 4096]⟩ : Shape).Idx → EReal) (w : (⟨2, ![4096, 4096]⟩ : Shape).Idx → EReal)
    (b : (⟨1, ![4096]⟩ : Shape).Idx → EReal) : (⟨3, ![4, 2048, 4096]⟩ : Shape).Idx → EReal :=
  fun i => (∑ s : Fin 4096, x (ix3 (i 0) (i 1) s) * w (ix2 (i 2) s)) + b (ix1 (i 2))

end Cert.RowDot

end
-- ==== Proof.RefStages.lean ====
import proofs.«149485_j24876450578668_1_alg».proof.Defs
import proofs.«149485_j24876450578668_1_alg».proof.Proof.Gen.ReferenceIdeal.Run
import proofs.«149485_j24876450578668_1_alg».proof.Proof.Gen.ReferenceIdeal.Read
import proofs.«149485_j24876450578668_1_alg».proof.Proof.RowDot

/-!
  The reference's result, read at an index on the extended reals: its last three operations are the contraction of x's
  last axis with the weight matrix's last axis, and the bias broadcast along the last axis and added — the linear layer
  of the weight matrix its earlier operations decode.
-/

noncomputable section

namespace Cert.ReferenceIdeal.RefValue

open Cert.ReferenceIdeal Cert.ReferenceIdeal.Read Idealize.ShloMosaic Idealize.ShloMosaic.ValueIdx

/-- The reference's result is the linear layer of x, the decoded weight matrix and the bias. -/
theorem result_eq (x0 : (⟨S4x2048x4096, .f32⟩ : BufTy).Contents (Elt Ideal)) (x1 : (⟨S1048576, .i32⟩ : BufTy).Contents (Elt Ideal)) (x2 : (⟨S65536x16, .f32⟩ : BufTy).Contents (Elt Ideal)) (x3 : (⟨S16x64, .f32⟩ : BufTy).Contents (Elt Ideal)) (x4 : (⟨S64, .f32⟩ : BufTy).Contents (Elt Ideal)) (x5 : (⟨S64x16, .f32⟩ : BufTy).Contents (Elt Ideal)) (x6 : (⟨S16, .f32⟩ : BufTy).Contents (Elt Ideal)) (x7 x8 x9 : (⟨S4096, .f32⟩ : BufTy).Contents (Elt Ideal)) :
    val_main_v26 (F := Ideal) x0 x1 x2 x3 x4 x5 x6 x7 x8 x9 = Cert.RowDot.linear x0 (val_main_v22 (F := Ideal) x1 x2 x3 x4 x5 x6 x7 x8) x9 := by
  funext i
  have el : ∀ k : Fin 4096, lidx_main_v23 i k = ix3 (i 0) (i 1) k := fun k =>
    funext fun a => Fin.ext (by match a with | ⟨0, _⟩ => rfl | ⟨1, _⟩ => rfl | ⟨2, _⟩ => rfl)
  have er : ∀ k : Fin 4096, ridx_main_v23 i k = ix2 (i 2) k := fun k =>
    funext fun a => Fin.ext (by match a with | ⟨0, _⟩ => rfl | ⟨1, _⟩ => rfl)
  have eb : idx_main_v24 (idx_main_v25 i) = ix1 (i 2) :=
    funext fun a => Fin.ext (by match a with | ⟨0, _⟩ => rfl)
  rw [val_main_v26_apply, val_main_v23_apply, val_main_v25_apply, val_main_v24_apply]
  simp only [el, er, eb, Ideal.addf_def]
  rfl

end Cert.ReferenceIdeal.RefValue

end
-- ==== Proof.BodyPieces.lean ====
import proofs.«149485_j24876450578668_1_alg».proof.Defs
import proofs.«149485_j24876450578668_1_alg».proof.Proof.Gen.KernelIdeal.Frame
import Idealize.ShloMosaic.Lib.Pipeline.Value
import Idealize.ShloMosaic.Lib.Tactic
/-!
  What one run of the kernel body leaves in the accumulator and in the output block, case by case, as the body's
  stored values (for any float instance).

  The body keeps a [1024, 1024] accumulator across the eight steps of the reduction axis. At the first step it
  stores the zero block and then the zero block plus the step's partial product; at a later step the accumulator it
  found plus the step's partial product; at the last step it also stores the output block, the updated accumulator
  plus the bias row.
-/

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- At a first reduction step (not the last) the accumulator is stored twice: the zero block, then the zero block read
    back plus the product of the two input blocks. The later store covers the buffer, so it is what the buffer holds. -/
theorem acc_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x512 .bf16) (x1 : Vec F S1024x512 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x512) hz]

/-- At a middle reduction step the accumulator is stored once: what the step before left plus the product of the two
    input blocks. -/
theorem acc_middle (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x512 .bf16) (x1 : Vec F S1024x512 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S1024x512) hz, View.ld_unit_zero (S := S1024x1024) hz]

/-- At the last reduction step the accumulator is updated as at a middle step, -/
theorem acc_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S1024x512 .bf16) (x2 : Vec F S1x1024 .f32) (xs0 : Vec F S1024x1024 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x512) hz, View.ld_unit_zero (S := S1024x1024) hz]

/-- and the output block is stored: the updated accumulator read back plus the bias row down every row. -/
theorem out_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x512 .bf16) (x1 : Vec F S1024x512 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x512) hz, View.ld_unit_zero (S := S1024x1024) hz, View.ld_unit_zero (S := S1x1024) hz,
    View.readCov_unit_zero (S := S1024x1024) _ hz]

end Cert.KernelIdeal.Pieces
end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibRowsRows.lean ====
/-
  A 2-D matrix product into the zero accumulator with the LAST axis of both operands contracted — [M, K] against [N, K],
  rows by rows — read at an output entry on the extended reals: entry (m, n) is the sum over k of lhs (m, k) * rhs (n, k).
  This is the product of a matrix with the transpose of another, as a projection x · Wᵀ or a score matrix q · kᵀ is
  written. The result is [M, N]. The dimension record is the one built from the literal axis lists; its well-formedness
  proof is a parameter. Over any extents M, K, N.
-/
import Idealize.ShloMosaic.PureOps.Ideal.Laws
import Idealize.ShloMosaic.Lib.ValueIdx
import proofs.«149485_j24876450578668_1_alg».proof.Proof.LibContractSum

namespace Cert.LibRowsRows

open Idealize.ShloMosaic Idealize.ShloMosaic.ValueIdx

variable {M K N : ℕ} {φ₁ φ₂ : FTy}

/-- Rows by rows: entry (m, n) is the sum over k of lhs (m, k) * rhs (n, k). -/
theorem rows_rows
    (wf : DotDims.WF (⟨2, ![M, K]⟩ : Shape) (⟨2, ![N, K]⟩ : Shape) (⟨2, ![M, N]⟩ : Shape)
      ([1] : List (Fin 2)) ([1] : List (Fin 2)) ([0] : List (Fin 2)) ([0] : List (Fin 2)) [] [])
    (prec : Option ContractPrecision) (lhs : FVec Ideal (⟨2, ![M, K]⟩ : Shape) φ₁) (rhs : FVec Ideal (⟨2, ![N, K]⟩ : Shape) φ₂)
    (m : Fin M) (n : Fin N) :
    FloatOps.matmul (⟨[1], [1], [0], [0], [], [], wf⟩ : DotDims (⟨2, ![M, K]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 m k) * rhs (ix2 n k) := by
  refine Cert.LibContractSum.matmul_zero_sum _ prec K rfl rfl lhs rhs (ix2 m n) (fun k => ix2 m k) (fun k => ix2 n k)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibRowsRows
-- ==== Proof.PayloadAt.lean ====
import proofs.«149485_j24876450578668_1_alg».proof.Proof.Gen.KernelIdeal.Skeleton
import proofs.«149485_j24876450578668_1_alg».proof.Proof.LibRowsRows
import Idealize.ShloMosaic.Lib.ValueIdx
import Idealize.ShloMosaic.Lib.ValueLayout
import Idealize.ShloMosaic.Lib.Pipeline.Value
import Idealize.ShloMosaic.PureOps.Ideal.Laws

/-!
  The three values the kernel body stores, read at an entry on the extended reals.

  * the reset block is zero everywhere;
  * one reduction step adds to the accumulator's entry (p, q) the partial inner product of row p of the
    left block with row q of the right block, over the block's 512 columns;
  * the epilogue adds to the accumulator's entry (p, q) the bias row's entry q.
-/

noncomputable section

namespace Cert.KernelIdeal.PayloadAt

open Cert.KernelIdeal Cert.KernelIdeal.Gen Idealize.ShloMosaic Idealize.ShloMosaic.ValueIdx

/-- The reset block is zero at every entry. -/
theorem reset_at (p q : Fin 1024) : k0_pay1 (F := Ideal) (ix2 p q) = 0 := by
  unfold k0_pay1
  rw [shapeCast_self]
  exact Ideal.ofBits_zero_f32

/-- One reduction step at entry (p, q): the accumulator's entry plus the sum over the block's 512 columns of
    left (p, k) * right (q, k). -/
theorem step_at (acc : Vec Ideal S1024x1024 .f32) (a b : Vec Ideal S1024x512 .bf16) (p q : Fin 1024) :
    k0_pay2 acc a b (ix2 p q) = acc (ix2 p q) + ∑ k : Fin 512, a (ix2 p k) * b (ix2 q k) := by
  unfold k0_pay2
  rw [shapeCast_self, shapeCast_self, shapeCast_self]
  refine (addf_apply _ _ _).trans ?_
  exact congrArg (acc (ix2 p q) + ·)
    (Cert.LibRowsRows.rows_rows (M := 1024) (K := 512) (N := 1024) dot_S1024x512_S1024x512_S1024x1024_1_1_0_0_n_n_wf none a b p q)

/-- The epilogue at entry (p, q): the accumulator's entry plus the bias row's entry q. -/
theorem epilogue_at (acc : Vec Ideal S1024x1024 .f32) (bias : Vec Ideal S1x1024 .f32) (p q : Fin 1024) :
    k0_pay3 acc bias (ix2 p q) = acc (ix2 p q) + bias (ix2 (0 : Fin 1) q) := by
  unfold k0_pay3
  rw [shapeCast_self]
  refine (addf_apply _ _ _).trans ?_
  exact congrArg (acc (ix2 p q) + ·) (broadcastTo_1b_ab_apply (a := 1024) (b := 1024) bias broadcasts_S1x1024_S1024x1024 p q)

end Cert.KernelIdeal.PayloadAt

end
-- ==== Proof.Accumulate.lean ====
import proofs.«149485_j24876450578668_1_alg».proof.Defs
import proofs.«149485_j24876450578668_1_alg».proof.Proof.Gen.KernelIdeal.Frame
import proofs.«149485_j24876450578668_1_alg».proof.Proof.BodyPieces
import proofs.«149485_j24876450578668_1_alg».proof.Proof.PayloadAt
import proofs.«149485_j24876450578668_1_alg».proof.Proof.RowDot
import Idealize.ShloMosaic.Lib.Pipeline.Value
import Idealize.ShloMosaic.Lib.Tactic

/-!
  The accumulator across the grid, on the extended reals.

  The grid is 8 x 4 x 8: point n works on row block n / 32, column block n / 8 % 4 and reduction tile n % 8. The left
  window's block at n is rows (n / 32) * 1024 + p, columns (n % 8) * 512 + k of the flattened activations X; the right
  window's block is rows (n / 8 % 4) * 1024 + q, the same columns, of the weight matrix W; the bias window's block is
  columns (n / 8 % 4) * 1024 + q of the bias row B. After point n the accumulator's entry (p, q) is the tile-by-tile
  accumulator of the inner product of those two rows after n % 8 + 1 tiles (by induction on n: a first tile starts
  from the zero block, a later tile adds to what the point before left, which has the same row and column block); at a
  last tile the output block's entry is the whole inner product plus the bias entry.
-/

noncomputable section

open Idealize.ShloMosaic Idealize.ShloMosaic.TcCoe Idealize.SL.Sem
open Idealize.ShloMosaic.Pipeline (Dat)

namespace Cert.KernelIdeal.Accumulate

open Cert.KernelIdeal Cert.KernelIdeal.Gen Idealize.ShloMosaic.ValueIdx Cert.LibTileSum Cert.RowDot Cert.KernelIdeal.PayloadAt

variable (m : (ℓ : Loc nD τ sig) → Buf (Elt Ideal) ℓ)

/-- The flattened activations, the weight matrix and the bias row as the kernel's windows find them. -/
abbrev X (c : Dev nD) : (⟨2, ![8192, 4096]⟩ : Shape).Idx → EReal := V m c main_v24
abbrev W (c : Dev nD) : (⟨2, ![4096, 4096]⟩ : Shape).Idx → EReal := V m c main_v25
abbrev B (c : Dev nD) : (⟨2, ![1, 4096]⟩ : Shape).Idx → EReal := V m c main_v26

/-- Row p of point n's row block, row q of its column block, column k of its reduction tile. -/
def rowIdx (n : ℕ) (p : Fin 1024) : Fin 8192 := ⟨n / 32 % 8 * 1024 + p.val, by have := p.isLt; omega⟩
def colIdx (n : ℕ) (q : Fin 1024) : Fin 4096 := ⟨n / 8 % 4 * 1024 + q.val, by have := q.isLt; omega⟩
def redIdx (n : ℕ) (k : Fin 512) : Fin 4096 := ⟨n % 8 * 512 + k.val, by have := k.isLt; omega⟩

/-- The windows' block indices at every grid point, decided over the grid. -/
theorem idx_facts : ∀ t : Fin cfg0.N,
    win0_0.index t (0 : Fin 2) = t.val / 32 % 8 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 % 8 ∧ win0_3.index t (1 : Fin 2) = t.val / 8 % 4 :=
  (by decide +kernel : ∀ t : Fin grid0.N, _)

/-- The left window's block at point t. -/
theorem left_block (c : Dev nD) (t : Fin cfg0.N) (p : Fin 1024) (k : Fin 512) :
    (iblk m c 0 t : Vec Ideal S1024x512 .bf16) (ix2 p k) = X m c (ix2 (rowIdx t.val p) (redIdx t.val k)) := by
  obtain ⟨e0, e1, -⟩ := idx_facts t
  unfold iblk
  rw [View.read_apply]
  show V m c main_v24 _ = V m c main_v24 _
  congr 1
  funext a; apply Fin.ext
  match a with
  | ⟨0, _⟩ => show win0_0.index t (0 : Fin 2) * 1024 + 1 * p.val = t.val / 32 % 8 * 1024 + p.val; rw [e0]; omega
  | ⟨1, _⟩ => show win0_0.index t (1 : Fin 2) * 512 + 1 * k.val = t.val % 8 * 512 + k.val; rw [e1]; omega

/-- The right window's block at point t. -/
theorem right_block (c : Dev nD) (t : Fin cfg0.N) (q : Fin 1024) (k : Fin 512) :
    (iblk m c 1 t : Vec Ideal S1024x512 .bf16) (ix2 q k) = W m c (ix2 (colIdx t.val q) (redIdx t.val k)) := by
  obtain ⟨-, -, e0, e1, -⟩ := idx_facts t
  unfold iblk
  rw [View.read_apply]
  show V m c main_v25 _ = V m c main_v25 _
  congr 1
  funext a; apply Fin.ext
  match a with
  | ⟨0, _⟩ => show win0_1.index t (0 : Fin 2) * 1024 + 1 * q.val = t.val / 8 % 4 * 1024 + q.val; rw [e0]; omega
  | ⟨1, _⟩ => show win0_1.index t (1 : Fin 2) * 512 + 1 * k.val = t.val % 8 * 512 + k.val; rw [e1]; omega

/-- The bias window's block at point t. -/
theorem bias_block (c : Dev nD) (t : Fin cfg0.N) (q : Fin 1024) :
    (iblk m c 2 t : Vec Ideal S1x1024 .f32) (ix2 (0 : Fin 1) q) = B m c (ix2 (0 : Fin 1) (colIdx t.val q)) := by
  obtain ⟨-, -, -, -, e0, e1, -⟩ := idx_facts t
  unfold iblk
  rw [View.read_apply]
  show V m c main_v26 _ = V m c main_v26 _
  congr 1
  funext a; apply Fin.ext
  match a with
  | ⟨0, _⟩ => show win0_2.index t (0 : Fin 2) * 1 + 1 * 0 = 0; rw [e0]
  | ⟨1, _⟩ => show win0_2.index t (1 : Fin 2) * 1024 + 1 * q.val = t.val / 8 % 4 * 1024 + q.val; rw [e1]; omega

/-- One reduction step at point t adds tile t % 8 of the inner product of the point's two rows. -/
theorem step_tile (c : Dev nD) (t : Fin cfg0.N) (p q : Fin 1024) (prev : Vec Ideal S1024x1024 .f32) :
    k0_pay2 prev (iblk m c 0 t) (iblk m c 1 t) (ix2 p q)
      = prev (ix2 p q) + ∑ k : Fin 512, term (X m c) (W m c) (rowIdx t.val p) (colIdx t.val q) (512 * (t.val % 8) + k.val) := by
  refine (step_at prev (iblk m c 0 t) (iblk m c 1 t) p q).trans (congrArg (prev (ix2 p q) + ·) ?_)
  refine Finset.sum_congr rfl fun k _ => ?_
  have hk := k.isLt
  rw [left_block, right_block, term_of_lt _ _ _ _ _ (by omega : 512 * (t.val % 8) + k.val < 4096)]
  have e : redIdx t.val k = ⟨512 * (t.val % 8) + k.val, by omega⟩ := Fin.ext (by show t.val % 8 * 512 + k.val = 512 * (t.val % 8) + k.val; omega)
  rw [e]

/-- At a first tile the accumulator ends at the zero block plus the tile's product. -/
theorem snd_first (c : Dev nD) (t : Fin cfg0.N) (h0 : t.val % 8 = 0) (h1 : ¬t.val % 8 = 7) :
    (outsAt0 m c t.val t.isLt).2 = k0_pay2 (k0_pay1 (F := Ideal)) (iblk m c 0 t) (iblk m c 1 t) := by
  rw [outsAt0_A m c t h0 h1]
  dsimp only
  exact Pieces.acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- At a later tile the accumulator ends at what the point before left plus the tile's product. -/
theorem snd_later (c : Dev nD) (t : Fin cfg0.N) (h0 : ¬t.val % 8 = 0) :
    (outsAt0 m c t.val t.isLt).2 = k0_pay2 (outsAt0 m c (t.val - 1) (Nat.lt_of_le_of_lt (Nat.sub_le _ _) t.isLt)).2 (iblk m c 0 t) (iblk m c 1 t) := by
  by_cases h1 : t.val % 8 = 7
  · rw [outsAt0_C m c t h0 h1]
    dsimp only
    exact Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
  · rw [outsAt0_B m c t h0 h1]
    dsimp only
    exact Pieces.acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- At a last tile the output block is the accumulator the point leaves plus the bias row. -/
theorem fst_last (c : Dev nD) (t : Fin cfg0.N) (h0 : ¬t.val % 8 = 0) (h1 : t.val % 8 = 7) :
    (outsAt0 m c t.val t.isLt).1 = k0_pay3 (outsAt0 m c t.val t.isLt).2 (iblk m c 2 t) := by
  rw [outsAt0_C m c t h0 h1]
  dsimp only
  show out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2
    = k0_pay3 (sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (iblk m c 2 t)
  rw [Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2,
    Pieces.acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]

/-- After point n the accumulator's entry (p, q) is the tile-by-tile accumulator of the inner product of row
    (n / 32) * 1024 + p of X with row (n / 8 % 4) * 1024 + q of W after n % 8 + 1 tiles. -/
theorem acc_eq (c : Dev nD) : ∀ (n : ℕ) (h : n < cfg0.N) (p q : Fin 1024),
    (outsAt0 m c n h).2 (ix2 p q) = tileAcc 512 (term (X m c) (W m c) (rowIdx n p) (colIdx n q)) (n % 8 + 1)
  | 0, h, p, q => by
    rw [show (outsAt0 m c 0 h).2 = _ from snd_first m c ⟨0, h⟩ (Nat.zero_mod 8) (by show ¬0 % 8 = 7; decide), step_tile m c ⟨0, h⟩ p q, reset_at]
    exact (tileAcc_succ 512 _ 0).symm
  | n + 1, h, p, q => by
    have hN : n + 1 < 256 := lt_of_lt_of_eq h (show cfg0.N = 256 from N_0)
    by_cases h0 : (n + 1) % 8 = 0
    · rw [show (outsAt0 m c (n + 1) h).2 = _ from snd_first m c ⟨n + 1, h⟩ h0 (by dsimp only; omega),
        step_tile m c ⟨n + 1, h⟩ p q, reset_at]
      show (0 : EReal) + ∑ k : Fin 512, term (X m c) (W m c) (rowIdx (n + 1) p) (colIdx (n + 1) q) (512 * ((n + 1) % 8) + k.val) = _
      rw [h0]
      exact (tileAcc_succ 512 _ 0).symm
    · rw [show (outsAt0 m c (n + 1) h).2 = _ from snd_later m c ⟨n + 1, h⟩ h0, step_tile m c ⟨n + 1, h⟩ p q]
      show (outsAt0 m c n _).2 (ix2 p q) + ∑ k : Fin 512, term (X m c) (W m c) (rowIdx (n + 1) p) (colIdx (n + 1) q) (512 * ((n + 1) % 8) + k.val) = _
      rw [acc_eq c n _ p q]
      have er : rowIdx n p = rowIdx (n + 1) p := Fin.ext (by show n / 32 % 8 * 1024 + p.val = (n + 1) / 32 % 8 * 1024 + p.val; omega)
      have ec : colIdx n q = colIdx (n + 1) q := Fin.ext (by show n / 8 % 4 * 1024 + q.val = (n + 1) / 8 % 4 * 1024 + q.val; omega)
      have ek : n % 8 + 1 = (n + 1) % 8 := by omega
      rw [er, ec, ek]
      exact (tileAcc_succ 512 _ ((n + 1) % 8)).symm

/-- At a last tile the output block's entry (p, q) is the whole inner product plus the bias entry. -/
theorem out_eq (c : Dev nD) (t : Fin cfg0.N) (h1 : t.val % 8 = 7) (p q : Fin 1024) :
    (outsAt0 m c t.val t.isLt).1 (ix2 p q)
      = dot (X m c) (W m c) (rowIdx t.val p) (colIdx t.val q) + B m c (ix2 (0 : Fin 1) (colIdx t.val q)) := by
  rw [fst_last m c t (by omega) h1, epilogue_at, acc_eq m c t.val t.isLt p q, bias_block, h1]
  exact congrArg (· + B m c (ix2 (0 : Fin 1) (colIdx t.val q))) (RowDot.tileAcc_all _ _ _ _)

end Cert.KernelIdeal.Accumulate

end
-- ==== Proof.HostArrays.lean ====
import proofs.«149485_j24876450578668_1_alg».proof.Defs
import proofs.«149485_j24876450578668_1_alg».proof.Proof.Gen.KernelIdeal.Frame
import Idealize.ShloMosaic.Lib.Pipeline.Value
import Idealize.ShloMosaic.Lib.StableHlo.Run
import Idealize.ShloMosaic.Lib.Tactic
/-!
  The three arrays the kernel's windows read, as the host operations before the kernel leave them: the activations
  x flattened to [8192, 4096] (narrowed to bf16), the decoded weight matrix [4096, 4096] (narrowed to bf16), and the
  bias as one row [1, 4096].
-/

noncomputable section

open Idealize.ShloMosaic Idealize.ShloMosaic.TcCoe Idealize.SL.Sem
open Idealize.ShloMosaic.Pipeline (Dat)

namespace Cert.KernelIdeal.HostArrays
open Cert.KernelIdeal Cert.KernelIdeal.Gen
variable {F : FTy → Type} [FloatOps F]

/-- The weight matrix as the host operations compute it from the index array, the codebook, the decoder's two layers
    and the per-row scale and shift: gather the code of every weight block, a dense layer with relu, a dense layer,
    the blocks laid out as [4096, 4096], then each row scaled and shifted. -/
def decode (x1 : (⟨S1048576, .i32⟩ : BufTy).Contents (Elt F)) (x2 : (⟨S65536x16, .f32⟩ : BufTy).Contents (Elt F)) (x3 : (⟨S16x64, .f32⟩ : BufTy).Contents (Elt F)) (x4 : (⟨S64, .f32⟩ : BufTy).Contents (Elt F)) (x5 : (⟨S64x16, .f32⟩ : BufTy).Contents (Elt F)) (x6 : (⟨S16, .f32⟩ : BufTy).Contents (Elt F)) (x7 x8 : (⟨S4096, .f32⟩ : BufTy).Contents (Elt F)) : (⟨S4096x4096, .f32⟩ : BufTy).Contents (Elt F) :=
  addf (mulf (shapeCast _ (addf (Host.dotGeneral dot_S1048576x64_S64x16_S1048576x16_1_0_0_1_n_n none (maximumf (addf (Host.dotGeneral dot_S1048576x16_S16x64_S1048576x64_1_0_0_1_n_n none (Host.gather gather_S65536x16_S1048576x1_S1048576x16_1_0_n_n_0_1_116 x2 (broadcastInDim S1048576x1 ![0] bcast_S1048576_S1048576x1_0 (select (cmpi .slt x1 (broadcastInDim S1048576 ![] bcast_S_S1048576 (constantI S_ 32 0#32))) (addi x1 (broadcastInDim S1048576 ![] bcast_S_S1048576 (constantI S_ 32 65536#32))) x1))) x3) (broadcastInDim S1048576x64 ![0, 1] bcast_S1x64_S1048576x64_0_1 (broadcastInDim S1x64 ![1] bcast_S64_S1x64_1 x4))) (broadcastInDim S1048576x64 ![] bcast_S_S1048576x64 (constant S_ .f32 0x00000000#32))) x5) (broadcastInDim S1048576x16 ![0, 1] bcast_S1x16_S1048576x16_0_1 (broadcastInDim S1x16 ![1] bcast_S16_S1x16_1 x6))) shapeCasts_S1048576x16_S4096x4096) (broadcastInDim S4096x4096 ![0, 1] bcast_S4096x1_S4096x4096_0_1 (broadcastInDim S4096x1 ![0] bcast_S4096_S4096x1_0 x7))) (broadcastInDim S4096x4096 ![0, 1] bcast_S4096x1_S4096x4096_0_1 (broadcastInDim S4096x1 ![0] bcast_S4096_S4096x1_0 x8))

variable (m : (ℓ : Loc nD τ sig) → Buf (Elt F) ℓ)

/-- The kernel's left operand is x with its two leading axes merged, narrowed to bf16. -/
theorem left_eq (c : Dev nD) : (V m c main_v24 : S8192x4096.Idx → F .bf16)
    = truncf .bf16 (shapeCast S8192x4096 (m ((c : Thread nD τ).loc main_arg0)) shapeCasts_S4x2048x4096_S8192x4096) bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

/-- The kernel's bias operand is the bias vector as one row. -/
theorem bias_eq (c : Dev nD) : (V m c main_v26 : S1x4096.Idx → F .f32)
    = shapeCast S1x4096 (m ((c : Thread nD τ).loc main_arg9)) shapeCasts_S4096_S1x4096 := by
  dsimp only [Gen.V, Gen.V0]
  simp only [Gen.hostOps0, Gen.hostOps0_1, Gen.hostOps0_2, List.flatten_cons, List.flatten_nil, List.append_nil, List.cons_append, List.nil_append]
  after_results
  rfl

set_option maxHeartbeats 2000000 in
/-- The kernel's right operand is the decoded weight matrix, narrowed to bf16. -/
theorem right_eq (c : Dev nD) : (V m c main_v25 : S4096x4096.Idx → F .bf16)
    = truncf .bf16 (decode (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) bitsLt_bf16_f32 := by
  dsimp only [Gen.V, Gen.V0]
  simp only [Gen.hostOps0, Gen.hostOps0_1, Gen.hostOps0_2, List.flatten_cons, List.flatten_nil, List.append_nil, List.cons_append, List.nil_append]
  after_results
  rfl

end Cert.KernelIdeal.HostArrays
end
-- ==== Proof.Result.lean ====
import proofs.«149485_j24876450578668_1_alg».proof.Defs
import proofs.«149485_j24876450578668_1_alg».proof.Proof.Gen.KernelIdeal.Frame
import proofs.«149485_j24876450578668_1_alg».proof.Proof.Accumulate
import proofs.«149485_j24876450578668_1_alg».proof.Proof.HostArrays
import Idealize.ShloMosaic.Lib.Pipeline.Value
import Idealize.ShloMosaic.Lib.ValueLayout
import Idealize.ShloMosaic.Lib.StableHlo.Run
import Idealize.ShloMosaic.Lib.Tactic

/-!
  The kernel's result array on the extended reals.

  The output window is written back at the last tile of every (row block, column block): the point
  ((r / 1024) * 4 + o / 1024) * 8 + 7 writes the block that holds entry (r, o), so the blocks written back cover the
  [8192, 4096] array, which therefore ends holding, at (r, o), the inner product of row r of the flattened activations
  with row o of the weight matrix plus the bias entry o. The host operation after the kernel splits the leading axis
  back into [4, 2048]; read through the reshapes on both ends this is the linear layer of x, the decoded weight matrix
  and the bias.
-/

noncomputable section

open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.RowDot Cert.KernelIdeal.Accumulate
  Cert.KernelIdeal.HostArrays

variable (m : (ℓ : Loc nD τ sig) → Buf (Elt Ideal) ℓ) (ρ : Dev nD → PrngReg)

/-- The [8192, 4096] array the kernel leaves: entry (r, o) is the inner product of row r of X with row o of W plus
    the bias entry o. -/
def flat (c : Dev nD) : (⟨2, ![8192, 4096]⟩ : Shape).Idx → EReal :=
  fun j => dot (X m c) (W m c) (j 0) (j 1) + B m c (ix2 (0 : Fin 1) (j 1))

/-- At a last-tile point the output block's entry (p, q) is the array's entry at the point's row and column. -/
theorem block_eq (c : Dev nD) (t : Fin cfg0.N) (h7 : t.val % 8 = 7) :
    ((outsAt0 m c t.val t.isLt).1 : S1024x1024.Idx → EReal)
      = fun y : S1024x1024.Idx => flat m c (ix2 (rowIdx t.val (y 0)) (colIdx t.val (y 1))) := by
  funext y
  obtain ⟨p, q, rfl⟩ : ∃ (p q : Fin 1024), y = ix2 p q := ⟨y 0, y 1, eq_ix2 y⟩
  exact out_eq m c t h7 p q

/-- What a last-tile point writes back is its block of that array. -/
theorem flushed_eq (c : Dev nD) (t : Fin cfg0.N) (hf : (cfg0.win 3).flush t = true) :
    (dats m 0 c).flushed 3 t = ((cfg0.win 3).blk t).view.read (Elt Ideal) (flat m c) := by
  have h7 : t.val % 8 = 7 := (flush0_3 t).mp hf
  obtain ⟨-, -, -, -, -, -, e0, e1⟩ := idx_facts t
  show (cfg0.win 3).cut (grid0.coords t) ((dats m 0 c).after 3 t) = _
  rw [after0_3, block_eq m c t h7]
  funext y
  show flat m c (ix2 (rowIdx t.val (y 0)) (colIdx t.val (y 1))) = flat m c (((cfg0.win 3).blk t).view.emb y)
  refine congrArg (flat m c) ?_
  funext a; apply Fin.ext
  match a with
  | ⟨0, _⟩ => show t.val / 32 % 8 * 1024 + (y 0).val = win0_3.index t (0 : Fin 2) * 1024 + 1 * (y 0).val; rw [e0]; omega
  | ⟨1, _⟩ => show t.val / 8 % 4 * 1024 + (y 1).val = win0_3.index t (1 : Fin 2) * 1024 + 1 * (y 1).val; rw [e1]; omega

/-- An index of the array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v27).slice (win0_3.rect t)).set ↔ _
  rw [View.set_slice_whole, Rect.mem_set_unit]
  exact Iff.rfl

/-- Every entry (r, o) is in the block written back at the last tile of (r / 1024, o / 1024). -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 256 := N_0
  have hn : ((i 0).val / 1024 * 4 + (i 1).val / 1024) * 8 + 7 < cfg0.N := by rw [hN]; omega
  refine ⟨⟨((i 0).val / 1024 * 4 + (i 1).val / 1024) * 8 + 7, hn⟩, (flush0_3 _).mpr (by dsimp only; omega), ?_⟩
  obtain ⟨-, -, -, -, -, -, e0, e1⟩ := idx_facts ⟨((i 0).val / 1024 * 4 + (i 1).val / 1024) * 8 + 7, hn⟩
  rw [mem_blk]
  intro a
  match a with
  | ⟨0, _⟩ =>
    show win0_3.index _ (0 : Fin 2) * 1024 ≤ (i 0).val ∧ (i 0).val < win0_3.index _ (0 : Fin 2) * 1024 + 1024
    rw [e0]; dsimp only; omega
  | ⟨1, _⟩ =>
    show win0_3.index _ (1 : Fin 2) * 1024 ≤ (i 1).val ∧ (i 1).val < win0_3.index _ (1 : Fin 2) * 1024 + 1024
    rw [e1]; dsimp only; omega

/-- So the output array ends holding it. -/
theorem final (c : Dev nD) : (dats m 0 c).arrAt 3 cfg0.N = flat m c :=
  (dats m 0 c).arrAt_eq_of_cover 3 (flat m c) (flushed_eq m c) covered

/-- The kernel program's result: the array with its leading axis split into [4, 2048]. -/
def result (c : Dev nD) : (⟨3, ![4, 2048, 4096]⟩ : Shape).Idx → EReal :=
  shapeCast S4x2048x4096 (flat m c) shapeCasts_S8192x4096_S4x2048x4096

/-- What the host operation after the kernel leaves in the result buffer. -/
theorem tail_eq (c : Dev nD) :
    Pipeline.afterTail₀ cfgs (dats m) 0 (V0 m) [hostOps1] c main_v28 = result m c := by
  unfold Pipeline.afterTail₀
  show StableHlo.after hostOps1 _ (Proc.devRef .tc main_v28) = _
  after_results
  rw [show Pipeline.withArrays (cfgs 0).spec c (V0 m c) (fun w => (dats m 0 c).arrAt w (cfgs 0).N) (Proc.tc.devRef main_v27) = flat m c from
    (Pipeline.withArrays_arr spec0 launch0.win.arr_inj c _ _ 3).trans (final m c)]
  rfl

/-- Row b * 2048 + s of the flattened activations is row (b, s) of x. -/
theorem X_at (c : Dev nD) (b : Fin 4) (s : Fin 2048) (k : Fin 4096) :
    X m c (ix2 ⟨b.val * 2048 + s.val, by have := b.isLt; have := s.isLt; omega⟩ k)
      = m ((c : Thread nD τ).loc main_arg0) (ix3 b s k) := by
  show (V m c main_v24 : S8192x4096.Idx → Ideal .bf16) _ = _
  rw [left_eq m c, truncf_apply]
  exact shapeCast_apply _ shapeCasts_S4x2048x4096_S8192x4096 _ (ix3 b s k) (by
    rw [Shape.rowMajor_val_three, Shape.rowMajor_val_two]; rfl)

/-- The weight matrix the kernel reads is the decoded one. -/
theorem W_at (c : Dev nD) (o k : Fin 4096) :
    W m c (ix2 o k) = decode (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 o k) := by
  show (V m c main_v25 : S4096x4096.Idx → Ideal .bf16) _ = _
  rw [right_eq m c, truncf_apply]

/-- The bias row's entry o is the bias vector's. -/
theorem B_at (c : Dev nD) (o : Fin 4096) :
    B m c (ix2 (0 : Fin 1) o) = m ((c : Thread nD τ).loc main_arg9) (ix1 o) := by
  show (V m c main_v26 : S1x4096.Idx → Ideal .f32) _ = _
  rw [bias_eq m c]
  exact shapeCast_a_1a_apply _ shapeCasts_S4096_S1x4096 0 o

/-- The result is the linear layer of x, the decoded weight matrix and the bias. -/
theorem result_linear (c : Dev nD) :
    result m c = linear (m ((c : Thread nD τ).loc main_arg0)) (decode (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  funext i
  obtain ⟨b, s, o, rfl⟩ : ∃ (b : Fin 4) (s : Fin 2048) (o : Fin 4096), i = ix3 b s o := ⟨i 0, i 1, i 2, eq_ix3 i⟩
  have hb : b.val < 4 := b.isLt
  have hs : s.val < 2048 := s.isLt
  unfold result
  rw [shapeCast_apply (flat m c) shapeCasts_S8192x4096_S4x2048x4096 (ix3 b s o)
    (ix2 ⟨b.val * 2048 + s.val, by omega⟩ o) (by rw [Shape.rowMajor_val_three, Shape.rowMajor_val_two]; rfl)]
  show (∑ k : Fin 4096, X m c (ix2 ⟨b.val * 2048 + s.val, by omega⟩ k) * W m c (ix2 o k)) + B m c (ix2 (0 : Fin 1) o)
    = linear (m ((c : Thread nD τ).loc main_arg0)) (decode (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (ix3 b s o)
  rw [B_at]
  unfold linear
  refine congrArg₂ (· + ·) (Finset.sum_congr rfl fun k _ => ?_) rfl
  rw [X_at m c b s k, W_at]

/-- The kernel program's run, read: the result buffer at the linear layer's array, the arguments unchanged. -/
theorem run : θ_run defs (onTc (τ := τ) (main (F := Ideal))) ⟨m, fun _ => 0, ρ⟩ fun r => ∀ c : Dev nD,
      r.2.mem ((c : Thread nD τ).loc main_v28) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).2 main_v28 (Pipeline.mem_restRefs_of main_v28 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Result

end
-- ==== Proof.lean ====
/-
  The kernel is a linear layer whose weight matrix is decoded on the host: out (b, s, o) = (the sum over i < 4096 of
  x (b, s, i) * W (o, i)) + bias o, where W is gathered from a codebook, passed through a two-layer decoder, laid out
  as [4096, 4096] and scaled and shifted by row. The kernel program computes W by the same host operations as the
  reference, then runs a tiled matrix product that accumulates the 4096-term inner product eight tiles of 512 terms at a
  time and adds the bias after the last tile; the reference contracts in one operation. On the extended reals the two
  agree because a finite sum may be regrouped freely (addition is associative and commutative there, infinities
  included), so the precondition is never opened. The idealization rewrote nothing, so that claim is trivial; the three
  frames are the generated ones.
-/
import proofs.«149485_j24876450578668_1_alg».proof.Defs
import proofs.«149485_j24876450578668_1_alg».proof.Proof.Gen.Kernel
import proofs.«149485_j24876450578668_1_alg».proof.Proof.Gen.Kernel.Skeleton
import proofs.«149485_j24876450578668_1_alg».proof.Proof.Gen.Kernel.Launch
import proofs.«149485_j24876450578668_1_alg».proof.Proof.Gen.Kernel.Points
import proofs.«149485_j24876450578668_1_alg».proof.Proof.Gen.Kernel.Frame
import proofs.«149485_j24876450578668_1_alg».proof.Proof.Gen.KernelIdeal
import proofs.«149485_j24876450578668_1_alg».proof.Proof.Gen.KernelIdeal.Skeleton
import proofs.«149485_j24876450578668_1_alg».proof.Proof.Gen.KernelIdeal.Launch
import proofs.«149485_j24876450578668_1_alg».proof.Proof.Gen.KernelIdeal.Points
import proofs.«149485_j24876450578668_1_alg».proof.Proof.Gen.KernelIdeal.Frame
import proofs.«149485_j24876450578668_1_alg».proof.Proof.Gen.ReferenceIdeal
import proofs.«149485_j24876450578668_1_alg».proof.Proof.Gen.Pre_finite_inputs
import proofs.«149485_j24876450578668_1_alg».proof.Proof.RefStages
import proofs.«149485_j24876450578668_1_alg».proof.Proof.Result
import Idealize.ShloMosaic.Adequacy
import Idealize.ShloMosaic.Init

noncomputable section

namespace Cert.Proof

open Idealize.ShloMosaic Idealize.ShloMosaic.TcCoe Idealize.SL.Sem

/-- Both programs decode the weight matrix by the same host operations. -/
theorem decode_eq (x1 : (⟨Cert.KernelIdeal.S1048576, .i32⟩ : BufTy).Contents (Elt Ideal)) (x2 : (⟨Cert.KernelIdeal.S65536x16, .f32⟩ : BufTy).Contents (Elt Ideal)) (x3 : (⟨Cert.KernelIdeal.S16x64, .f32⟩ : BufTy).Contents (Elt Ideal)) (x4 : (⟨Cert.KernelIdeal.S64, .f32⟩ : BufTy).Contents (Elt Ideal)) (x5 : (⟨Cert.KernelIdeal.S64x16, .f32⟩ : BufTy).Contents (Elt Ideal)) (x6 : (⟨Cert.KernelIdeal.S16, .f32⟩ : BufTy).Contents (Elt Ideal)) (x7 x8 : (⟨Cert.KernelIdeal.S4096, .f32⟩ : BufTy).Contents (Elt Ideal)) :
    Cert.KernelIdeal.HostArrays.decode (F := Ideal) x1 x2 x3 x4 x5 x6 x7 x8
      = Cert.ReferenceIdeal.Read.val_main_v22 (F := Ideal) x1 x2 x3 x4 x5 x6 x7 x8 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end at the linear layer of x, the decoded weight matrix
    and the bias. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  rw [Cert.ReferenceIdeal.Read.val_main_v26_eq, Cert.ReferenceIdeal.RefValue.result_eq, a0, a1, a2, a3, a4, a5, a6, a7, a8, a9]
  exact ((Cert.KernelIdeal.Result.result_linear m c).trans (congrArg (fun w => Cert.RowDot.linear _ w _) (decode_eq _ _ _ _ _ _ _ _))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
